-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S16384x208 : Shape := ⟨2, ![16384, 208]⟩
abbrev S16384 : Shape := ⟨1, ![16384]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S16384x208 : S_.BroadcastsInDim S16384x208 (![] : Fin 0 → Fin S16384x208.rank)
  reducesTo_S16384x208_S_d0_1 : S16384x208.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2048x4096 .f32) (main_arg1 : IVec S16384x208 32) (main_arg2 : FVec F S16384x208 .f32) (main_arg3 : FVec F S16384 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S16384x208 .f32 := Host.absf main_arg2
  let main_cst_0 : FVec F S_ .f32 := constant S_ .f32 0x7F800000#32
  let main_v5 : FVec F S16384x208 .f32 := broadcastInDim S16384x208 ![] bcast_S_S16384x208 main_cst_0
  let main_v6 : IVec S16384x208 1 := cmpf .olt main_v4 main_v5
  let main_c_1 : IVec S_ 1 := constantI S_ 1 1#1
  let main_v7 : IVec S_ 1 := (fun x v => Host.reduce IntOp.andi x v reducesTo_S16384x208_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2048x4096 : Shape := ⟨2, ![2048, 4096]⟩
abbrev S16384x208 : Shape := ⟨2, ![16384, 208]⟩
abbrev S16384 : Shape := ⟨1, ![16384]⟩
abbrev S16384x1 : Shape := ⟨2, ![16384, 1]⟩
abbrev S_ : Shape := ⟨0, ![]⟩
abbrev S16384x4096 : Shape := ⟨2, ![16384, 4096]⟩
abbrev S16384x208x1 : Shape := ⟨3, ![16384, 208, 1]⟩
abbrev S16384x208x2 : Shape := ⟨3, ![16384, 208, 2]⟩
abbrev S1x16384 : Shape := ⟨2, ![1, 16384]⟩
abbrev S2048x16384 : Shape := ⟨2, ![2048, 16384]⟩
abbrev S512x4096 : Shape := ⟨2, ![512, 4096]⟩
abbrev S1x512 : Shape := ⟨2, ![1, 512]⟩
abbrev S2048x512 : Shape := ⟨2, ![2048, 512]⟩

abbrev nBuf : Space → Nat
  | .hbm => 31
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S16384x208, .i32⟩
  | .hbm, ⟨2, _⟩ => ⟨S16384x208, .f32⟩
  | .hbm, ⟨3, _⟩ => ⟨S16384, .f32⟩
  | .hbm, ⟨4, _⟩ => ⟨S16384, .i32⟩
  | .hbm, ⟨5, _⟩ => ⟨S16384x1, .i32⟩
  | .hbm, ⟨6, _⟩ => ⟨S_, .f32⟩
  | .hbm, ⟨7, _⟩ => ⟨S16384x4096, .f32⟩
  | .hbm, ⟨8, _⟩ => ⟨S_, .i32⟩
  | .hbm, ⟨9, _⟩ => ⟨S16384x1, .i32⟩
  | .hbm, ⟨10, _⟩ => ⟨S16384x1, .i1⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S_, .i32⟩
  | .hbm, ⟨16, _⟩ => ⟨S16384x208, .i32⟩
  | .hbm, ⟨17, _⟩ => ⟨S16384x208, .i1⟩
  | .hbm, ⟨18, _⟩ => ⟨S_, .i32⟩
  | .hbm, ⟨19, _⟩ => ⟨S16384x208, .i32⟩
  | .hbm, ⟨20, _⟩ => ⟨S16384x208, .i32⟩
  | .hbm, ⟨21, _⟩ => ⟨S16384x208, .i32⟩
  | .hbm, ⟨22, _⟩ => ⟨S16384x208, .i32⟩
  | .hbm, ⟨23, _⟩ => ⟨S16384x208x1, .i32⟩
  | .hbm, ⟨24, _⟩ => ⟨S16384x208x1, .i32⟩
  | .hbm, ⟨25, _⟩ => ⟨S16384x208x2, .i32⟩
  | .hbm, ⟨26, _⟩ => ⟨S16384x4096, .f32⟩
  | .hbm, ⟨27, _⟩ => ⟨S2048x4096, .bf16⟩
  | .hbm, ⟨28, _⟩ => ⟨S16384x4096, .bf16⟩
  | .hbm, ⟨29, _⟩ => ⟨S1x16384, .f32⟩
  | .hbm, ⟨30, _⟩ => ⟨S2048x16384, .f32⟩
  | .local _ .vmem, ⟨0, _⟩ => ⟨S2048x4096, .bf16⟩
  | .local _ .vmem, ⟨1, _⟩ => ⟨S512x4096, .bf16⟩
  | .local _ .vmem, ⟨2, _⟩ => ⟨S512x4096, .bf16⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16384_S16384x1_0 : S16384.BroadcastsInDim S16384x1 (![0] : Fin 1 → Fin S16384x1.rank)
  bcast_S_S16384x4096 : S_.BroadcastsInDim S16384x4096 (![] : Fin 0 → Fin S16384x4096.rank)
  bcast_S_S16384x1 : S_.BroadcastsInDim S16384x1 (![] : Fin 0 → Fin S16384x1.rank)
  bcast_S_S16384x208 : S_.BroadcastsInDim S16384x208 (![] : Fin 0 → Fin S16384x208.rank)
  bcast_S16384x1_S16384x208_0_1 : S16384x1.BroadcastsInDim S16384x208 (![0, 1] : Fin 2 → Fin S16384x208.rank)
  bcast_S16384x208_S16384x208x1_0_1 : S16384x208.BroadcastsInDim S16384x208x1 (![0, 1] : Fin 2 → Fin S16384x208x1.rank)
  concatenates_S16384x208x1_S16384x208x1_S16384x208x2_d2 : Shape.Concatenates [S16384x208x1, S16384x208x1] S16384x208x2 2
  bitsLt_bf16_f32 : FTy.bits .bf16 < FTy.bits .f32
  shapeCasts_S16384_S1x16384 : S16384.ShapeCasts S1x16384
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  scatter_S16384x4096_S16384x208x2_S16384x208_n_01_01_2_wf : ScatterDims.WF S16384x4096 S16384x208x2 S16384x208 [] [0, 1] [0, 1] 2
  dot_S2048x4096_S512x4096_S2048x512_1_1_0_0_n_n_wf : DotDims.WF S2048x4096 S512x4096 S2048x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x16384.size a
  hwx0_3 : ∀ i : grid0.Coords, EltTy.bits .f32 = 32 ∨ (Rect.block (s := S2048x16384) S2048x512.size (cc0_transform_3 i) (hinb0_3 i)).WholeWords (EltTy.packing .f32)

variable [Facts₀]

def scatter_S16384x4096_S16384x208x2_S16384x208_n_01_01_2 : ScatterDims S16384x4096 S16384x208x2 S16384x208 where
  updateWindowDims := []
  insertedWindowDims := [0, 1]
  scatterDimsToOperandDims := [0, 1]
  indexVectorDim := 2
  wf := scatter_S16384x4096_S16384x208x2_S16384x208_n_01_01_2_wf
def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev win0_0 : Pipeline.Window sig grid0 :=
  Pipeline.Window.ofSpec (Memref.whole main_v18) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S16384x208 : Shape := ⟨2, ![16384, 208]⟩
abbrev S16384 : Shape := ⟨1, ![16384]⟩
abbrev S16384x1 : Shape := ⟨2, ![16384, 1]⟩
abbrev S_ : Shape := ⟨0, ![]⟩
abbrev S16384x4096 : Shape := ⟨2, ![16384, 4096]⟩
abbrev S16384x208x1 : Shape := ⟨3, ![16384, 208, 1]⟩
abbrev S16384x208x2 : Shape := ⟨3, ![16384, 208, 2]⟩
abbrev S4096x16384 : Shape := ⟨2, ![4096, 16384]⟩
abbrev S2048x16384 : Shape := ⟨2, ![2048, 16384]⟩
abbrev S1x16384 : Shape := ⟨2, ![1, 16384]⟩

abbrev nBuf : Space → Nat
  | .hbm => 32
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S16384x208, .i32⟩
  | .hbm, ⟨2, _⟩ => ⟨S16384x208, .f32⟩
  | .hbm, ⟨3, _⟩ => ⟨S16384, .f32⟩
  | .hbm, ⟨4, _⟩ => ⟨S16384, .i32⟩
  | .hbm, ⟨5, _⟩ => ⟨S16384x1, .i32⟩
  | .hbm, ⟨6, _⟩ => ⟨S_, .f32⟩
  | .hbm, ⟨7, _⟩ => ⟨S16384x4096, .f32⟩
  | .hbm, ⟨8, _⟩ => ⟨S_, .i32⟩
  | .hbm, ⟨9, _⟩ => ⟨S16384x1, .i32⟩
  | .hbm, ⟨10, _⟩ => ⟨S16384x1, .i1⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S_, .i32⟩
  | .hbm, ⟨16, _⟩ => ⟨S16384x208, .i32⟩
  | .hbm, ⟨17, _⟩ => ⟨S16384x208, .i1⟩
  | .hbm, ⟨18, _⟩ => ⟨S_, .i32⟩
  | .hbm, ⟨19, _⟩ => ⟨S16384x208, .i32⟩
  | .hbm, ⟨20, _⟩ => ⟨S16384x208, .i32⟩
  | .hbm, ⟨21, _⟩ => ⟨S16384x208, .i32⟩
  | .hbm, ⟨22, _⟩ => ⟨S16384x208, .i32⟩
  | .hbm, ⟨23, _⟩ => ⟨S16384x208x1, .i32⟩
  | .hbm, ⟨24, _⟩ => ⟨S16384x208x1, .i32⟩
  | .hbm, ⟨25, _⟩ => ⟨S16384x208x2, .i32⟩
  | .hbm, ⟨26, _⟩ => ⟨S16384x4096, .f32⟩
  | .hbm, ⟨27, _⟩ => ⟨S4096x16384, .f32⟩
  | .hbm, ⟨28, _⟩ => ⟨S2048x16384, .f32⟩
  | .hbm, ⟨29, _⟩ => ⟨S1x16384, .f32⟩
  | .hbm, ⟨30, _⟩ => ⟨S2048x16384, .f32⟩
  | .hbm, ⟨31, _⟩ => ⟨S2048x16384, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x4096 : S_.BroadcastsInDim S16384x4096 (![] : Fin 0 → Fin S16384x4096.rank)
  bcast_S_S16384x1 : S_.BroadcastsInDim S16384x1 (![] : Fin 0 → Fin S16384x1.rank)
  bcast_S_S16384x208 : S_.BroadcastsInDim S16384x208 (![] : Fin 0 → Fin S16384x208.rank)
  bcast_S16384x1_S16384x208_0_1 : S16384x1.BroadcastsInDim S16384x208 (![0, 1] : Fin 2 → Fin S16384x208.rank)
  bcast_S16384x208_S16384x208x1_0_1 : S16384x208.BroadcastsInDim S16384x208x1 (![0, 1] : Fin 2 → Fin S16384x208x1.rank)
  concatenates_S16384x208x1_S16384x208x1_S16384x208x2_d2 : Shape.Concatenates [S16384x208x1, S16384x208x1] S16384x208x2 2
  transposes_S16384x4096_S4096x16384_1_0 : S16384x4096.Transposes [1, 0] S4096x16384
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  scatter_S16384x4096_S16384x208x2_S16384x208_n_01_01_2_wf : ScatterDims.WF S16384x4096 S16384x208x2 S16384x208 [] [0, 1] [0, 1] 2
  dot_S2048x4096_S4096x16384_S2048x16384_1_0_0_1_n_n_wf : DotDims.WF S2048x4096 S4096x16384 S2048x16384 [1] [0] [0] [1] [] []

variable [Facts₀]

def scatter_S16384x4096_S16384x208x2_S16384x208_n_01_01_2 : ScatterDims S16384x4096 S16384x208x2 S16384x208 where
  updateWindowDims := []
  insertedWindowDims := [0, 1]
  scatterDimsToOperandDims := [0, 1]
  indexVectorDim := 2
  wf := scatter_S16384x4096_S16384x208x2_S16384x208_n_01_01_2_wf
def dot_S2048x4096_S4096x16384_S2048x16384_1_0_0_1_n_n : DotDims S2048x4096 S4096x16384 S2048x16384 where
  lhsContracting := [1]
  rhsContracting := [0]
  lhsNonContracting := [0]
  rhsNonContracting := [1]
  lhsBatch := []
  rhsBatch := []
  wf := dot_S2048x4096_S4096x16384_S2048x16384_1_0_0_1_n_n_wf

class Facts : Prop extends Facts₀ where

variable [Facts]
-- ==== Proof.LibDenseT.lean ====
/-
  General lemmas for a matrix product whose right operand is stored transposed, over variable extents, at the
  extended reals.

  * `trans_sum`: for the dimension numbers "M×K by N×K" (contract the left operand's axis 1 with the right
    operand's axis 1, no batch axis), the sum over the contraction index of the operands' products at the result
    index (i, j) is `∑ k : Fin K, l (i, k) * r (j, k)`.
  * `matmul_zero_trans` / `dotGeneral_trans`: hence a vector-unit matrix product into a zero accumulator, and the
    host's `dot_general`, read at (i, j), are both that sum.
-/
import Idealize.ShloMosaic.Lib.ValueIdx
import Idealize.ShloMosaic.Lib.Pipeline.Value
import Idealize.ShloMosaic.PureOps.Ideal.Laws

noncomputable section

namespace Cert.LibDenseT

open Idealize.ShloMosaic Idealize.ShloMosaic.ValueIdx

/-- The dimension numbers `<[1], [1], [0], [0], [], []>` over any well-formedness witness: two records with these
    axis lists differ only in that witness, so every printed record of this kind is one of these by unfolding. -/
abbrev transOf {M K N : Nat}
    (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  { lhsContracting := [1], rhsContracting := [1], lhsNonContracting := [0], rhsNonContracting := [0],
    lhsBatch := [], rhsBatch := [], wf := wf }

variable {M K N : Nat} (wf : DotDims.WF (⟨2, ![M, K]⟩ : Shape) ⟨2, ![N, K]⟩ ⟨2, ![M, N]⟩ [1] [1] [0] [0] [] [])

/-- The left operand's row is the result's row. -/
theorem lhs_row (i : (⟨2, ![M, N]⟩ : Shape).Idx) (q : (transOf wf).contr.Idx) :
    ((transOf wf).lhsIdx i q 0).val = (i 0).val := by
  unfold DotDims.lhsIdx
  rw [dif_neg (show ¬(0 : Fin 2) ∈ (transOf wf).lhsBatch from List.not_mem_nil),
    dif_pos (show (0 : Fin 2) ∈ (transOf wf).lhsNonContracting from List.mem_singleton.mpr rfl)]
  rfl

/-- The right operand's row is the result's column. -/
theorem rhs_row (i : (⟨2, ![M, N]⟩ : Shape).Idx) (q : (transOf wf).contr.Idx) :
    ((transOf wf).rhsIdx i q 0).val = (i 1).val := by
  unfold DotDims.rhsIdx
  rw [dif_neg (show ¬(0 : Fin 2) ∈ (transOf wf).rhsBatch from List.not_mem_nil),
    dif_pos (show (0 : Fin 2) ∈ (transOf wf).rhsNonContracting from List.mem_singleton.mpr rfl)]
  rfl

/-- The contraction sum at (i, j), re-indexed by the one contracted coordinate. -/
theorem trans_sum (l : (⟨2, ![M, K]⟩ : Shape).Idx → EReal) (r : (⟨2, ![N, K]⟩ : Shape).Idx → EReal)
    (i : Fin M) (j : Fin N) :
    ∑ q : (transOf wf).contr.Idx, l ((transOf wf).lhsIdx (ix2 i j) q) * r ((transOf wf).rhsIdx (ix2 i j) q)
      = ∑ k : Fin K, l (ix2 i k) * r (ix2 j k) := by
  rw [← Equiv.sum_comp (contrEquiv1 (transOf wf) K rfl rfl).symm]
  refine Finset.sum_congr rfl fun k _ => ?_
  have hk := contrEquiv1_symm_val (transOf wf) K rfl rfl k
  have el : (transOf wf).lhsIdx (ix2 i j) ((contrEquiv1 (transOf wf) K rfl rfl).symm k) = ix2 i k :=
    funext fun a => Fin.ext (by
      match a with
      | ⟨0, _⟩ => exact lhs_row wf _ _
      | ⟨1, _⟩ => exact ((transOf wf).lhsIdx_val_of_single rfl _ _).trans hk)
  have er : (transOf wf).rhsIdx (ix2 i j) ((contrEquiv1 (transOf wf) K rfl rfl).symm k) = ix2 j k :=
    funext fun a => Fin.ext (by
      match a with
      | ⟨0, _⟩ => exact rhs_row wf _ _
      | ⟨1, _⟩ => exact ((transOf wf).rhsIdx_val_of_single rfl _ _).trans hk)
  rw [el, er]

/-- A matrix product on the vector unit into the zero accumulator, read at (i, j). -/
theorem matmul_zero_trans {φ₁ φ₂ : FTy} (prec : Option ContractPrecision)
    (l : FVec Ideal (⟨2, ![M, K]⟩ : Shape) φ₁) (r : FVec Ideal (⟨2, ![N, K]⟩ : Shape) φ₂) (i : Fin M) (j : Fin N) :
    FloatOps.matmul (transOf wf) prec l r (constant (⟨2, ![M, N]⟩ : Shape) .f32 0x00000000#32) (ix2 i j)
      = ∑ k : Fin K, l (ix2 i k) * r (ix2 j k) :=
  (Ideal.matmul_constant_zero_apply (transOf wf) prec l r (ix2 i j)).trans (trans_sum wf l r i j)

/-- The host's `dot_general` with the same dimension numbers, read at (i, j): the same sum. -/
theorem dotGeneral_trans {φ₁ φ₂ : FTy} (prec : Option ContractPrecision) (sched : HostSchedule)
    (l : FVec Ideal (⟨2, ![M, K]⟩ : Shape) φ₁) (r : FVec Ideal (⟨2, ![N, K]⟩ : Shape) φ₂) (i : Fin M) (j : Fin N) :
    FloatOps.dotGeneral (transOf wf) prec sched l r (ix2 i j) = ∑ k : Fin K, l (ix2 i k) * r (ix2 j k) :=
  (Ideal.dotGeneral_apply (transOf wf) prec sched l r (ix2 i j)).trans (trans_sum wf l r i j)

end Cert.LibDenseT

end
-- ==== Proof.BlockValue.lean ====
/-
  What the kernel's body computes at one grid point, entry by entry. The body multiplies the whole of x
  (2048 × 4096) by a block of 512 rows of W (512 × 4096), contracting the 4096-axis of both, into a zero
  accumulator, and adds the block's 512 biases to every row. So the entry (p, q) of what it stores is
      (∑ k, x (p, k) · Wblock (q, k)) + bblock (0, q).
-/
import proofs.«144297_j84121229459539_1_alg».proof.Proof.Gen.KernelIdeal.Skeleton
import proofs.«144297_j84121229459539_1_alg».proof.Proof.LibDenseT
import Idealize.ShloMosaic.Lib.ValueIdx
import Idealize.ShloMosaic.Lib.Pipeline.Value

noncomputable section

namespace Cert.KernelIdeal.BlockValue

open Cert.KernelIdeal Cert.KernelIdeal.Gen Idealize.ShloMosaic Idealize.ShloMosaic.ValueIdx

/-- The bias row, broadcast down the 2048 rows, read at (p, q) is the row's entry q. -/
theorem bias_row (v : Vec Ideal S1x512 .f32) (p : Fin 2048) (q : Fin 512) :
    broadcastTo S2048x512 v Facts₀.broadcasts_S1x512_S2048x512 (ix2 p q) = v (ix2 (0 : Fin 1) q) :=
  broadcastTo_apply v Facts₀.broadcasts_S1x512_S2048x512 (ix2 p q) (ix2 (0 : Fin 1) q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- The stored value at (p, q): row p of x against row q of the weight block, plus bias q of the block. -/
theorem pay_apply (x0 : Vec Ideal S2048x4096 .bf16) (x1 : Vec Ideal S512x4096 .bf16) (x2 : Vec Ideal S1x512 .f32)
    (p : Fin 2048) (q : Fin 512) :
    k0_pay1 (F := Ideal) x0 x1 x2 (ix2 p q)
      = (∑ k : Fin 4096, x0 (ix2 p k) * x1 (ix2 q k)) + x2 (ix2 (0 : Fin 1) q) := by
  unfold k0_pay1
  show FloatOps.matmul (F := Ideal) (Cert.LibDenseT.transOf Facts₀.dot_S2048x4096_S512x4096_S2048x512_1_1_0_0_n_n_wf) none
        (shapeCast S2048x4096 x0 Facts₀.shapeCasts_S2048x4096_S2048x4096)
        (shapeCast S512x4096 x1 Facts₀.shapeCasts_S512x4096_S512x4096)
        (constant (F := Ideal) S2048x512 .f32 0x00000000#32) (ix2 p q)
      + broadcastTo S2048x512 (shapeCast S1x512 x2 Facts₀.shapeCasts_S1x512_S1x512)
          Facts₀.broadcasts_S1x512_S2048x512 (ix2 p q) = _
  rw [shapeCast_self, shapeCast_self, shapeCast_self, bias_row,
    Cert.LibDenseT.matmul_zero_trans]

end Cert.KernelIdeal.BlockValue

end
-- ==== Proof.Entry.lean ====
/-
  The three arrays the kernel's region reads, as it finds them.
  * x arrives through a change of float format, which is the identity on extended reals.
  * The weight matrix W (16384 × 4096) is the zero matrix with each condensed weight (o, j) added at row o, column
    mask (o, j) — a scatter-add — and then the same change of format. The reference builds W with the very same
    operations, so W is named here once, by the reference's stage, and both programs are read against that one array.
  * The bias row (1 × 16384) is the bias vector re-laid: its entry (0, o) is bias o.
-/
import proofs.«144297_j84121229459539_1_alg».proof.Proof.Gen.KernelIdeal.Frame
import proofs.«144297_j84121229459539_1_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The dense weight matrix of a mask and its condensed weights: zero, plus weight (o, j) at (o, mask (o, j)). -/
abbrev W (mask : S16384x208.Idx → BitVec 32) (cw : S16384x208.Idx → EReal) : S16384x4096.Idx → EReal :=
  Cert.ReferenceIdeal.Read.val_main_v17 (F := Ideal) mask cw

/-- The region finds x itself. -/
theorem x_entry (c : Dev nD) :
    (V m c main_v18 : S2048x4096.Idx → EReal) = m ((c : Thread nD τ).loc main_arg0) := by
  dsimp only [Gen.V, Gen.hostOps0]; after_results; rfl

set_option maxHeartbeats 2000000 in
/-- The region finds W of the mask and the condensed weights. -/
theorem W_entry (c : Dev nD) :
    (V m c main_v19 : S16384x4096.Idx → EReal)
      = W (m ((c : Thread nD τ).loc main_arg1)) (m ((c : Thread nD τ).loc main_arg2)) := by
  dsimp only [Gen.V, Gen.hostOps0]; after_results; rfl

/-- The region finds the bias vector as one row: entry (0, o) is bias o. -/
theorem b_entry (c : Dev nD) (o : Fin 16384) :
    (V m c main_v20 : S1x16384.Idx → EReal) (ix2 (0 : Fin 1) o) = m ((c : Thread nD τ).loc main_arg3) (ix1 o) := by
  have e : (V m c main_v20 : S1x16384.Idx → EReal)
      = shapeCast S1x16384 (m ((c : Thread nD τ).loc main_arg3)) Facts₀.shapeCasts_S16384_S1x16384 := by
    dsimp only [Gen.V, Gen.hostOps0]; after_results; rfl
  rw [e]
  exact shapeCast_apply _ _ (ix2 (0 : Fin 1) o) (ix1 o) (by
    rw [Shape.rowMajor_val_one, Shape.rowMajor_val_two]
    show o.val = 0 * 16384 + o.val
    omega)

end Cert.KernelIdeal.Entry

end
-- ==== Proof.Affine.lean ====
/-
  The function both programs compute: a dense layer with its weight matrix stored row per output,
      out (r, o) = (∑ k, x (r, k) · W (o, k)) + b o,
  over the extended reals, for x of 2048 × 4096, W of 16384 × 4096 and b of 16384 entries. Nothing here depends on
  how W was built; both programs build it by the same scatter-add, and it enters only as an array.
-/
import Idealize.ShloMosaic.Lib.ValueIdx

noncomputable section

namespace Cert.Affine

open Idealize.ShloMosaic Idealize.ShloMosaic.ValueIdx

/-- One entry of the layer's output: row `r` of `x` against row `o` of `W`, plus the bias of output `o`. -/
def entry (x : (⟨2, ![2048, 4096]⟩ : Shape).Idx → EReal) (W : (⟨2, ![16384, 4096]⟩ : Shape).Idx → EReal)
    (b : (⟨1, ![16384]⟩ : Shape).Idx → EReal) (r : Fin 2048) (o : Fin 16384) : EReal :=
  (∑ k : Fin 4096, x (ix2 r k) * W (ix2 o k)) + b (ix1 o)

/-- The whole output array, index by index. -/
def out (x : (⟨2, ![2048, 4096]⟩ : Shape).Idx → EReal) (W : (⟨2, ![16384, 4096]⟩ : Shape).Idx → EReal)
    (b : (⟨1, ![16384]⟩ : Shape).Idx → EReal) : (⟨2, ![2048, 16384]⟩ : Shape).Idx → EReal :=
  fun i => entry x W b (i 0) (i 1)

theorem out_apply (x : (⟨2, ![2048, 4096]⟩ : Shape).Idx → EReal) (W : (⟨2, ![16384, 4096]⟩ : Shape).Idx → EReal)
    (b : (⟨1, ![16384]⟩ : Shape).Idx → EReal) (r : Fin 2048) (o : Fin 16384) :
    out x W b (ix2 r o) = entry x W b r o := rfl

end Cert.Affine

end
-- ==== Proof.Blocks.lean ====
/-
  From the kernel's 32 blocks to its whole result. Grid point t holds all of x, rows 512·t … 512·t + 511 of W and
  the matching 512 biases, and writes columns 512·t … 512·t + 511 of the result, every row. Entry (p, q) of what it
  writes is therefore the dense layer's entry (p, 512·t + q); the 32 column blocks tile the 16384 columns; so the
  result array ends as the dense layer of x, W and the bias, index by index.
-/
import proofs.«144297_j84121229459539_1_alg».proof.Proof.Gen.KernelIdeal.Value
import proofs.«144297_j84121229459539_1_alg».proof.Proof.BlockValue
import proofs.«144297_j84121229459539_1_alg».proof.Proof.Entry
import proofs.«144297_j84121229459539_1_alg».proof.Proof.Affine

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Column q of column block n, as a column of the whole result. -/
def col (n : Nat) (hn : n < 32) (q : Fin 512) : Fin 16384 := ⟨n * 512 + q.val, by have := q.isLt; omega⟩

/-- The dense layer of the arguments as launched: what the result array is to hold. -/
abbrev layer (c : Dev nD) : S2048x16384.Idx → EReal :=
  Cert.Affine.out (m ((c : Thread nD τ).loc main_arg0))
    (Entry.W (m ((c : Thread nD τ).loc main_arg1)) (m ((c : Thread nD τ).loc main_arg2)))
    (m ((c : Thread nD τ).loc main_arg3))

/-- If the body's three operands are all of x, row block n of W and bias block n, then what it stores at (p, q)
    is the dense layer's entry (p, 512·n + q). -/
theorem block_entry (X0 : Vec Ideal S2048x4096 .bf16) (X1 : Vec Ideal S512x4096 .bf16) (X2 : Vec Ideal S1x512 .f32)
    (x : S2048x4096.Idx → EReal) (Wm : S16384x4096.Idx → EReal) (b : S16384.Idx → EReal) (n : Nat) (hn : n < 32)
    (h0 : ∀ (p : Fin 2048) (k : Fin 4096), X0 (ix2 p k) = x (ix2 p k))
    (h1 : ∀ (q : Fin 512) (k : Fin 4096), X1 (ix2 q k) = Wm (ix2 (col n hn q) k))
    (h2 : ∀ q : Fin 512, X2 (ix2 (0 : Fin 1) q) = b (ix1 (col n hn q)))
    (p : Fin 2048) (q : Fin 512) :
    k0_pay1 (F := Ideal) X0 X1 X2 (ix2 p q) = Cert.Affine.entry x Wm b p (col n hn q) := by
  rw [BlockValue.pay_apply, h2]
  unfold Cert.Affine.entry
  congr 1
  exact Finset.sum_congr rfl fun k _ => by rw [h0, h1]

theorem hz : (![0, 0] : Fin 2 → Nat) = fun _ => 0 := funext fun a => by fin_cases a <;> rfl

/-- Where each window's block sits at grid point t: x is always block (0, 0); W is row block t; the bias row and
    the result are column block t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What grid point t writes back is column block t of the dense layer. -/
theorem flushed_eq (c : Dev nD) (t : Fin cfg0.N) :
    (dats m 0 c).flushed 3 t = ((cfg0.win 3).blk t).view.read (Elt Ideal) (layer m c) := by
  show (cfg0.win 3).cut (grid0.coords t) ((dats m 0 c).after 3 t) = _
  rw [after0_3]
  unfold out0_3
  rw [View.canon_unit_zero hz]
  simp only [View.ld_unit_zero (S := S2048x4096) hz, View.ld_unit_zero (S := S512x4096) hz,
    View.ld_unit_zero (S := S1x512) hz]
  obtain ⟨e00, e01, e10, e11, e20, e21, e30, e31⟩ := idx_facts t
  have ht : t.val < 32 := lt_of_lt_of_eq t.isLt N_0
  funext j
  obtain ⟨p, q, rfl⟩ : ∃ (p : Fin 2048) (q : Fin 512), j = ix2 p q := ⟨j 0, j 1, eq_ix2 j⟩
  have hout : ((cfg0.win 3).blk t).view.emb (ix2 p q) = ix2 p (col t.val ht q) := by
    funext a; apply Fin.ext
    match a with
    | ⟨0, _⟩ => show win0_3.index t (0 : Fin 2) * 2048 + 1 * p.val = p.val; omega
    | ⟨1, _⟩ => show win0_3.index t (1 : Fin 2) * 512 + 1 * q.val = t.val * 512 + q.val; omega
  show k0_pay1 (F := Ideal) (iblk m c 0 t) (iblk m c 1 t) (iblk m c 2 t) (ix2 p q)
      = layer m c (((cfg0.win 3).blk t).view.emb (ix2 p q))
  rw [hout]
  show _ = Cert.Affine.entry _ _ _ p (col t.val ht q)
  refine block_entry _ _ _ _ _ _ t.val ht ?_ ?_ ?_ p q
  · intro p' k
    have he : ((cfg0.win 0).blk t).view.emb (ix2 p' k) = ix2 p' k := by
      funext a; apply Fin.ext
      match a with
      | ⟨0, _⟩ => show win0_0.index t (0 : Fin 2) * 2048 + 1 * p'.val = p'.val; omega
      | ⟨1, _⟩ => show win0_0.index t (1 : Fin 2) * 4096 + 1 * k.val = k.val; omega
    show V m c main_v18 (((cfg0.win 0).blk t).view.emb (ix2 p' k)) = _
    rw [he]
    exact congrFun (Entry.x_entry m c) (ix2 p' k)
  · intro q' k
    have he : ((cfg0.win 1).blk t).view.emb (ix2 q' k) = ix2 (col t.val ht q') k := by
      funext a; apply Fin.ext
      match a with
      | ⟨0, _⟩ => show win0_1.index t (0 : Fin 2) * 512 + 1 * q'.val = t.val * 512 + q'.val; omega
      | ⟨1, _⟩ => show win0_1.index t (1 : Fin 2) * 4096 + 1 * k.val = k.val; omega
    show V m c main_v19 (((cfg0.win 1).blk t).view.emb (ix2 q' k)) = _
    rw [he]
    exact congrFun (Entry.W_entry m c) (ix2 (col t.val ht q') k)
  · intro q'
    have he : ((cfg0.win 2).blk t).view.emb (ix2 (0 : Fin 1) q') = ix2 (0 : Fin 1) (col t.val ht q') := by
      funext a; apply Fin.ext
      match a with
      | ⟨0, _⟩ => show win0_2.index t (0 : Fin 2) * 1 + 1 * 0 = 0; omega
      | ⟨1, _⟩ => show win0_2.index t (1 : Fin 2) * 512 + 1 * q'.val = t.val * 512 + q'.val; omega
    show V m c main_v20 (((cfg0.win 2).blk t).view.emb (ix2 (0 : Fin 1) q')) = _
    rw [he]
    exact Entry.b_entry m c (col t.val ht q')

/-- An index of the result is in point t's block iff each coordinate is in the block's range on its axis. -/
theorem mem_blk (t : Fin cfg0.N) (i : S2048x16384.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v21).slice (win0_3.rect t)).set ↔ _
  rw [View.set_slice_whole, Rect.mem_set_unit]
  exact Iff.rfl

/-- Every index of the result lies in the block of the point its column belongs to: column o is in block o / 512. -/
theorem cover (i : S2048x16384.Idx) :
    ∃ t : Fin cfg0.N, (cfg0.win 3).flush t = true ∧ i ∈ ((cfg0.win 3).blk t).view.set := by
  have hi0 : (i 0).val < 2048 := (i 0).isLt
  have hi1 : (i 1).val < 16384 := (i 1).isLt
  have hN : (i 1).val / 512 < cfg0.N := by rw [show cfg0.N = 32 from N_0]; omega
  obtain ⟨-, -, -, -, -, -, e30, e31⟩ := idx_facts ⟨(i 1).val / 512, hN⟩
  refine ⟨⟨(i 1).val / 512, hN⟩, flush0_3 _, ?_⟩
  rw [mem_blk]
  intro a
  match a with
  | ⟨0, _⟩ =>
    show win0_3.index ⟨(i 1).val / 512, hN⟩ (0 : Fin 2) * 2048 ≤ (i 0).val
      ∧ (i 0).val < win0_3.index ⟨(i 1).val / 512, hN⟩ (0 : Fin 2) * 2048 + 2048
    omega
  | ⟨1, _⟩ =>
    show win0_3.index ⟨(i 1).val / 512, hN⟩ (1 : Fin 2) * 512 ≤ (i 1).val
      ∧ (i 1).val < win0_3.index ⟨(i 1).val / 512, hN⟩ (1 : Fin 2) * 512 + 512
    have e : (⟨(i 1).val / 512, hN⟩ : Fin cfg0.N).val = (i 1).val / 512 := rfl
    omega

/-- The result array after the run is the dense layer. -/
theorem final (c : Dev nD) : (dats m 0 c).arrAt 3 cfg0.N = layer m c :=
  (dats m 0 c).arrAt_eq_of_cover 3 (layer m c) (fun t _ => flushed_eq m c t) cover

/-- The kernel's run: it terminates with the result at the dense layer of the arguments, the arguments unchanged. -/
theorem run : θ_run defs (onTc (τ := τ) (main (F := Ideal))) ⟨m, fun _ => 0, ρ⟩ fun r => ∀ c : Dev nD,
      r.2.mem ((c : Thread nD τ).loc main_v21) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefValue.lean ====
/-
  The reference, index by index. It transposes W, contracts axis 1 of x with axis 0 of the transpose, and adds the
  bias vector broadcast to every row. At (r, o) the product reads x (r, k) · Wᵀ (k, o) = x (r, k) · W (o, k), and the
  broadcast reads b o: the dense layer of Affine.lean, with W the scatter-add stage it was built by.
-/
import proofs.«144297_j84121229459539_1_alg».proof.Proof.Gen.ReferenceIdeal.Read
import proofs.«144297_j84121229459539_1_alg».proof.Proof.Affine

noncomputable section

namespace Cert.ReferenceIdeal.RefValue

open Cert.ReferenceIdeal Cert.ReferenceIdeal.Gen Cert.ReferenceIdeal.Read
open Idealize.ShloMosaic Idealize.ShloMosaic.ValueIdx

/-- The reference's result is the dense layer of x, W and the bias. -/
theorem stage_eq (x0 : S2048x4096.Idx → EReal) (x1 : S16384x208.Idx → BitVec 32) (x2 : S16384x208.Idx → EReal)
    (x3 : S16384.Idx → EReal) :
    val_main_v22 (F := Ideal) x0 x1 x2 x3 = Cert.Affine.out x0 (val_main_v17 (F := Ideal) x1 x2) x3 := by
  funext i
  obtain ⟨r, o, rfl⟩ : ∃ (r : Fin 2048) (o : Fin 16384), i = ix2 r o := ⟨i 0, i 1, eq_ix2 i⟩
  rw [val_main_v22_apply, val_main_v19_apply, val_main_v21_apply, val_main_v20_apply, Cert.Affine.out_apply]
  unfold Cert.Affine.entry
  show (∑ k : Fin 4096, x0 (lidx_main_v19 (ix2 r o) k) * val_main_v18 (F := Ideal) x1 x2 (ridx_main_v19 (ix2 r o) k))
      + x3 (idx_main_v20 (idx_main_v21 (ix2 r o))) = _
  congr 1
  · refine Finset.sum_congr rfl fun k _ => ?_
    rw [val_main_v18_apply]
    have e1 : lidx_main_v19 (ix2 r o) k = ix2 r k :=
      funext fun a => Fin.ext (by match a with | ⟨0, _⟩ => rfl | ⟨1, _⟩ => rfl)
    have e2 : idx_main_v18 (ridx_main_v19 (ix2 r o) k) = ix2 o k :=
      funext fun a => Fin.ext (by match a with | ⟨0, _⟩ => rfl | ⟨1, _⟩ => rfl)
    rw [e1, e2]
  · exact congrArg x3 (funext fun a => Fin.ext (by match a with | ⟨0, _⟩ => rfl))

end Cert.ReferenceIdeal.RefValue

end
-- ==== Proof.lean ====
/-
  A sparse layer computed densely: out (r, o) = bias o + ∑ k, x (r, k) · W (o, k), where the 16384 × 4096 matrix W is
  zero with each condensed weight (o, j) added at row o, column mask (o, j).

  Both programs build W by the same scatter-add. The reference then transposes W, takes one 2048 × 4096 by
  4096 × 16384 product and adds the bias to every row. The kernel cuts the 16384 outputs into 32 blocks of 512: at
  block t it multiplies all of x by rows 512·t … 512·t + 511 of W, contracting the 4096-axis of both, into a zero
  accumulator, adds that block's biases, and writes columns 512·t … 512·t + 511 of the result. Its changes of float
  format are the identity on extended reals.

  Over the extended reals the two agree entry by entry with no law beyond re-indexing: entry (p, q) of block t is the
  dense layer's entry (p, 512·t + q) (BlockValue, Blocks), the blocks tile the columns (Blocks), the reference's stages
  read at (r, o) give the same sum and the same bias (RefValue), and W is one and the same array on both sides (Entry).
  The sum is never rearranged, so the inputs' finiteness is not used.

  The three frames are the generated ones (the reference's is its generated run with the result dropped); nothing was
  rewritten in idealizing the kernel, so there is nothing to preserve.
-/
import proofs.«144297_j84121229459539_1_alg».proof.Defs
import proofs.«144297_j84121229459539_1_alg».proof.Proof.Gen.Kernel
import proofs.«144297_j84121229459539_1_alg».proof.Proof.Gen.Kernel.Skeleton
import proofs.«144297_j84121229459539_1_alg».proof.Proof.Gen.Kernel.Launch
import proofs.«144297_j84121229459539_1_alg».proof.Proof.Gen.Kernel.Points
import proofs.«144297_j84121229459539_1_alg».proof.Proof.Gen.Kernel.Frame
import proofs.«144297_j84121229459539_1_alg».proof.Proof.Gen.KernelIdeal
import proofs.«144297_j84121229459539_1_alg».proof.Proof.Gen.KernelIdeal.Skeleton
import proofs.«144297_j84121229459539_1_alg».proof.Proof.Gen.KernelIdeal.Launch
import proofs.«144297_j84121229459539_1_alg».proof.Proof.Gen.KernelIdeal.Points
import proofs.«144297_j84121229459539_1_alg».proof.Proof.Gen.KernelIdeal.Frame
import proofs.«144297_j84121229459539_1_alg».proof.Proof.Gen.ReferenceIdeal
import proofs.«144297_j84121229459539_1_alg».proof.Proof.Gen.Pre_finite_inputs
import proofs.«144297_j84121229459539_1_alg».proof.Proof.Gen.KernelIdeal.Value
import proofs.«144297_j84121229459539_1_alg».proof.Proof.Gen.ReferenceIdeal.Run
import proofs.«144297_j84121229459539_1_alg».proof.Proof.Gen.ReferenceIdeal.Read
import proofs.«144297_j84121229459539_1_alg».proof.Proof.Blocks
import proofs.«144297_j84121229459539_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the dense layer of x, W and the bias in their result: the
    kernel block by block, the reference by its stages read at an index. -/
theorem algebraic : Cert.algebraic_KernelIdeal_ReferenceIdeal := by
  intro m ρ m' ρ' _ hagree
  refine ⟨fun c => Cert.KernelIdeal.Blocks.layer m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _).trans ?_
  refine (Cert.ReferenceIdeal.RefValue.stage_eq _ _ _ _).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
